-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S128x32 .f32) (main_arg10 : FVec F S32 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S10000x128 : Shape := ⟨2, ![10000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S10000x1 : Shape := ⟨2, ![10000, 1]⟩
abbrev S64x128 : Shape := ⟨2, ![64, 128]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 164
  | .vmem => 28
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S100000x128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S1x128, .f32⟩
  | 66 => ⟨S100000x128, .f32⟩
  | 67 => ⟨S100000x128, .f32⟩
  | 68 => ⟨S1x1600000, .i32⟩
  | 69 => ⟨S1600000, .i32⟩
  | 70 => ⟨S1x1600000, .i32⟩
  | 71 => ⟨S1600000, .i32⟩
  | 72 => ⟨S_, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S100000, .f32⟩
  | 81 => ⟨S_, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000, .f32⟩
  | 120 => ⟨S100000x1, .f32⟩
  | 121 => ⟨S1x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x128, .f32⟩
  | 12 => ⟨S1x128, .f32⟩
  | 13 => ⟨S64x128, .f32⟩
  | 14 => ⟨S64x128, .f32⟩
  | 15 => ⟨S_, .f32⟩
  | 16 => ⟨S64x128, .f32⟩
  | 17 => ⟨S64x128, .f32⟩
  | 18 => ⟨S64x32, .f32⟩
  | 19 => ⟨S1x32, .f32⟩
  | 20 => ⟨S64x32, .f32⟩
  | 21 => ⟨S64x32, .f32⟩
  | 22 => ⟨S_, .f32⟩
  | 23 => ⟨S64, .f32⟩
  | 24 => ⟨S_, .f32⟩
  | 25 => ⟨S64, .f32⟩
  | 26 => ⟨S64, .f32⟩
  | 27 => ⟨S64x1, .f32⟩
  | 28 => ⟨S64x32, .f32⟩
  | 29 => ⟨S64x32, .f32⟩
  | 30 => ⟨S64x32, .f32⟩
  | 31 => ⟨S_, .f32⟩
  | 32 => ⟨S64, .f32⟩
  | 33 => ⟨S64x1, .f32⟩
  | 34 => ⟨S64x32, .f32⟩
  | 35 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_c_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_c_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_17 : Ref sig .tc := ⟨.hbm, 103, rfl⟩
abbrev main_v73 : Ref sig .tc := ⟨.hbm, 104, rfl⟩
abbrev main_v74 : Ref sig .tc := ⟨.hbm, 105, rfl⟩
abbrev main_c_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_23 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_call0_cst : Ref sig .tc := ⟨.hbm, 143, rfl⟩
abbrev main_call0_v0 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩
abbrev main_cst_25 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_26 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  reducesTo_S64x32_S64_d1 : S64x32.ReducesTo [1] S64
  h_S_ : 0 < S_.numel
  bcast_S64x1_S64x32_0_1 : S64x1.BroadcastsInDim S64x32 (![0, 1] : Fin 2 → Fin S64x32.rank)
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v85) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v87) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v88) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S100000x128, .f32⟩
  | 12 => ⟨S1x1600000, .i32⟩
  | 13 => ⟨S1600000, .i32⟩
  | 14 => ⟨S1x1600000, .i32⟩
  | 15 => ⟨S1600000, .i32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S1x1600000, .i32⟩
  | 76 => ⟨S1600000, .i32⟩
  | 77 => ⟨S1x1600000, .i32⟩
  | 78 => ⟨S1600000, .i32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x128, .f32⟩
  | 119 => ⟨S1600000x1, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S64x128, .f32⟩
  | 11 => ⟨S100000x1, .i32⟩
  | 12 => ⟨S64x128, .f32⟩
  | 13 => ⟨S_, .f32⟩
  | 14 => ⟨S100000, .f32⟩
  | 15 => ⟨S_, .f32⟩
  | 16 => ⟨S64, .f32⟩
  | 17 => ⟨S100000x1, .i32⟩
  | 18 => ⟨S64, .f32⟩
  | 19 => ⟨S_, .f32⟩
  | 20 => ⟨S64, .f32⟩
  | 21 => ⟨S64, .f32⟩
  | 22 => ⟨S64x1, .f32⟩
  | 23 => ⟨S64x128, .f32⟩
  | 24 => ⟨S64x128, .f32⟩
  | 25 => ⟨S64x128, .f32⟩
  | 26 => ⟨S1x128, .f32⟩
  | 27 => ⟨S64x128, .f32⟩
  | 28 => ⟨S64x128, .f32⟩
  | 29 => ⟨S_, .f32⟩
  | 30 => ⟨S64x128, .f32⟩
  | 31 => ⟨S64x128, .f32⟩
  | 32 => ⟨S64x32, .f32⟩
  | 33 => ⟨S1x32, .f32⟩
  | 34 => ⟨S64x32, .f32⟩
  | 35 => ⟨S64x32, .f32⟩
  | 36 => ⟨S_, .f32⟩
  | 37 => ⟨S64, .f32⟩
  | 38 => ⟨S_, .f32⟩
  | 39 => ⟨S64, .f32⟩
  | 40 => ⟨S64, .f32⟩
  | 41 => ⟨S64x1, .f32⟩
  | 42 => ⟨S64x32, .f32⟩
  | 43 => ⟨S64x32, .f32⟩
  | 44 => ⟨S64x32, .f32⟩
  | 45 => ⟨S_, .f32⟩
  | 46 => ⟨S64, .f32⟩
  | 47 => ⟨S64x1, .f32⟩
  | 48 => ⟨S64x32, .f32⟩
  | 49 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_17 : Ref sig .tc := ⟨.hbm, 110, rfl⟩
abbrev main_v78 : Ref sig .tc := ⟨.hbm, 111, rfl⟩
abbrev main_v79 : Ref sig .tc := ⟨.hbm, 112, rfl⟩
abbrev main_c_18 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call1_cst : Ref sig .tc := ⟨.hbm, 134, rfl⟩
abbrev main_call1_v0 : Ref sig .tc := ⟨.hbm, 135, rfl⟩
abbrev main_v99 : Ref sig .tc := ⟨.hbm, 136, rfl⟩
abbrev main_cst_20 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_21 : Ref sig .tc := ⟨.hbm, 141, rfl⟩
abbrev main_v103 : Ref sig .tc := ⟨.hbm, 142, rfl⟩
abbrev main_cst_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_23 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_call2_cst : Ref sig .tc := ⟨.hbm, 157, rfl⟩
abbrev main_call2_v0 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_24 : Ref sig .tc := ⟨.hbm, 164, rfl⟩
abbrev main_v121 : Ref sig .tc := ⟨.hbm, 165, rfl⟩
abbrev main_cst_25 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_26 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  reducesTo_S64x32_S64_d1 : S64x32.ReducesTo [1] S64
  h_S_ : 0 < S_.numel
  bcast_S64x1_S64x32_0_1 : S64x1.BroadcastsInDim S64x32 (![0, 1] : Fin 2 → Fin S64x32.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x128_S64x128_1_0_0_1_n_n_wf : DotDims.WF S64x128 S128x128 S64x128 [1] [0] [0] [1] [] []
  dot_S64x128_S128x32_S64x32_1_0_0_1_n_n_wf : DotDims.WF S64x128 S128x32 S64x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«120384_j25744033972726_1_alg».proof.Proof.LibDense
import proofs.«120384_j25744033972726_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.Layer.lean ====
/-
  The dense half of a graph-convolution layer on the extended reals, over rank-2 arrays of any extents.

  `combine A H s b` has, at `(p, q)`, the entry `max (A(p, q) + H(p, q) · s(p, 0) + b(0, q), 0)`: the neighbours'
  aggregated features `A`, the node's own transformed features `H` scaled row by row with the factor held in the
  one-column array `s`, the bias row `b`, and the rectifier.  The vector unit spells it with the column and the
  bias row broadcast along the other axis; the host with a vector broadcast to a column and then along the rows,
  and a vector broadcast to a row and then along the columns.  Both are `combine`.  The entry at `(p, q)` depends
  only on row `p` of `A`, `H`, `s` and on entry `q` of `b`, which is what reading a block of rows against the
  whole array needs.
-/
import proofs.«120384_j25744033972726_1_alg».proof.Proof.LibRowScale

noncomputable section

namespace Cert.Gcn

open Idealize.ShloMosaic Idealize.ShloMosaic.ValueIdx Cert.Dense Cert.RowScale

/-- `max (A + H · s + b, 0)`, the factor `s` per row, the bias `b` per column. -/
def combine {M N : ℕ} (A H : Mat M N) (s : Mat M 1) (b : Mat 1 N) : Mat M N :=
  reluBias (fun i => A i + scaleRows H s i) b

/-- The entry at an index depends on the entries of `A` and `H` there, the row's factor and the column's bias. -/
theorem combine_at {M M' N N' : ℕ} (A H : Mat M N) (s : Mat M 1) (b : Mat 1 N)
    (A' H' : Mat M' N') (s' : Mat M' 1) (b' : Mat 1 N')
    (j : (⟨2, ![M', N']⟩ : Shape).Idx) (i : (⟨2, ![M, N]⟩ : Shape).Idx)
    (hA : A' j = A i) (hH : H' j = H i)
    (hs : s' (ix2 (c0 j) (0 : Fin 1)) = s (ix2 (c0 i) (0 : Fin 1)))
    (hb : b' (ix2 (0 : Fin 1) (c1 j)) = b (ix2 (0 : Fin 1) (c1 i))) :
    combine A' H' s' b' j = combine A H s b i := by
  unfold combine
  refine reluBias_at _ _ _ _ j i ?_ hb
  show A' j + scaleRows H' s' j = A i + scaleRows H s i
  rw [hA, scaleRows_at H s H' s' j i hH hs]

/-- The vector unit's form: every operand first cast to its own shape, the column broadcast along the rows and
    multiplied in, the bias row broadcast along the columns and added, the maximum with a zero splat. -/
theorem vecCombine {M N : ℕ} (a h : FVec Ideal ⟨2, ![M, N]⟩ .f32) (s : FVec Ideal ⟨2, ![M, 1]⟩ .f32)
    (b : FVec Ideal ⟨2, ![1, N]⟩ .f32)
    (k1 : (⟨2, ![M, N]⟩ : Shape).ShapeCasts ⟨2, ![M, N]⟩) (k2 : (⟨2, ![M, 1]⟩ : Shape).ShapeCasts ⟨2, ![M, 1]⟩)
    (k3 : (⟨2, ![1, N]⟩ : Shape).ShapeCasts ⟨2, ![1, N]⟩)
    (hs : (⟨2, ![M, 1]⟩ : Shape).Broadcasts ⟨2, ![M, N]⟩) (hb : (⟨2, ![1, N]⟩ : Shape).Broadcasts ⟨2, ![M, N]⟩) :
    maximumf (addf (addf (shapeCast ⟨2, ![M, N]⟩ a k1)
          (mulf (shapeCast ⟨2, ![M, N]⟩ h k1) (broadcastTo ⟨2, ![M, N]⟩ (shapeCast ⟨2, ![M, 1]⟩ s k2) hs)))
        (broadcastTo ⟨2, ![M, N]⟩ (shapeCast ⟨2, ![1, N]⟩ b k3) hb))
      (broadcast ⟨2, ![M, N]⟩ (Scalar.ofBits (F := Ideal) .f32 0x00000000#32)) = combine a h s b := by
  rw [shapeCast_self a, shapeCast_self h, shapeCast_self s, shapeCast_self b, vecScaleRows, vecReluBias]
  rfl

/-- The host's form: the factors a vector broadcast to a column and then along the rows, the bias a vector
    broadcast to a row and then along the columns, the maximum with a broadcast scalar zero. -/
theorem hostCombine {M N : ℕ} (A H : FVec Ideal ⟨2, ![M, N]⟩ .f32) (v : FVec Ideal ⟨1, ![M]⟩ .f32)
    (b : FVec Ideal ⟨1, ![N]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1])
    (g1 : (⟨1, ![N]⟩ : Shape).BroadcastsInDim ⟨2, ![1, N]⟩ ![1])
    (g2 : (⟨2, ![1, N]⟩ : Shape).BroadcastsInDim ⟨2, ![M, N]⟩ ![0, 1])
    (h0 : (⟨0, ![]⟩ : Shape).BroadcastsInDim ⟨2, ![M, N]⟩ ![]) :
    maximumf (addf (addf A (mulf H (broadcastInDim ⟨2, ![M, N]⟩ ![0, 1] h2 (broadcastInDim ⟨2, ![M, 1]⟩ ![0] h1 v))))
          (broadcastInDim ⟨2, ![M, N]⟩ ![0, 1] g2 (broadcastInDim ⟨2, ![1, N]⟩ ![1] g1 b)))
        (broadcastInDim ⟨2, ![M, N]⟩ ![] h0 (constant (F := Ideal) ⟨0, ![]⟩ .f32 0x00000000#32))
      = combine A H (col v) (row b) := by
  rw [hostScaleRows, hostReluBias]
  rfl

end Cert.Gcn

end
-- ==== Proof.RefShape.lean ====
/-
  The reference program read as three maps on the extended reals: two graph-convolution layers and a read-out.

  A layer transforms the node features by a matrix product `H = X W`, aggregates the transformed features of each
  node's neighbours weighted along the edges (`agg`, a gather, a per-edge weight and a scatter-add, all determined by
  the edge list), adds the node's own transformed features scaled by its squared inverse root degree, adds the bias
  and rectifies: `combine (agg H) H (deg⁻¹) b`.  The read-out averages the node features per graph, applies a
  rectified dense layer and a dense layer, and takes the soft-max of each row.  Nothing here opens the aggregation or
  the read-out: they are named as functions of the features they are applied to, so that another program applying
  the same operations to the same features is seen to compute the same thing.
-/
import proofs.«120384_j25744033972726_1_alg».proof.Proof.Gen.ReferenceIdeal.Read
import proofs.«120384_j25744033972726_1_alg».proof.Proof.Layer

set_option maxRecDepth 16384

noncomputable section

namespace Cert.ReferenceIdeal.Shape

open Cert.ReferenceIdeal Cert.ReferenceIdeal.Gen Cert.ReferenceIdeal.Read
open Idealize.ShloMosaic Idealize.ShloMosaic.ValueIdx
open Cert.Dense Cert.RowScale Cert.Gcn

section Named

variable {F : FTy → Type} [FloatOps F]

/-- The first layer's neighbour aggregation of transformed features `h` along the edge list `e`. -/
def agg1 (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1600000x1_S1600000x128_1_0_0_1 (val_main_v38 (F := F)) (val_main_v39 (F := F) e)
    (mulf (Host.gather gather_S100000x128_S1600000x1_S1600000x128_1_0_n_n_0_1_1128 h (val_main_v33 (F := F) e)) (val_main_v36 (F := F) e))

/-- The second layer's neighbour aggregation (the same operations, printed a second time). -/
def agg2 (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1600000x1_S1600000x128_1_0_0_1 (val_main_v88 (F := F)) (val_main_v89 (F := F) e)
    (mulf (Host.gather gather_S100000x128_S1600000x1_S1600000x128_1_0_n_n_0_1_1128 h (val_main_v83 (F := F) e)) (val_main_v86 (F := F) e))

/-- The read-out of node features `h`: mean per graph, two dense layers, row-wise soft-max. -/
def readout (h : (⟨S100000x128, .f32⟩ : BufTy).Contents (Elt F)) (x2 : (⟨S100000, .i32⟩ : BufTy).Contents (Elt F)) (x7 : (⟨S128x128, .f32⟩ : BufTy).Contents (Elt F)) (x8 : (⟨S128, .f32⟩ : BufTy).Contents (Elt F))
    (x9 : (⟨S128x32, .f32⟩ : BufTy).Contents (Elt F)) (x10 : (⟨S32, .f32⟩ : BufTy).Contents (Elt F)) : (⟨S64x32, .f32⟩ : BufTy).Contents (Elt F) :=
  let pooled := Host.divf (Host.scatterAdd scatter_S64x128_S100000x1_S100000x128_1_0_0_1 (val_main_v100 (F := F)) (val_main_v101 (F := F) x2) h) (val_main_v110 (F := F) x2)
  let g := maximumf (addf (Host.dotGeneral dot_S64x128_S128x128_S64x128_1_0_0_1_n_n none pooled x7) (val_main_v114 (F := F) x8)) (val_main_call2_v0 (F := F))
  let z := addf (Host.dotGeneral dot_S64x128_S128x32_S64x32_1_0_0_1_n_n none g x9) (val_main_v119 (F := F) x10)
  let mx := maximumf (val_main_v122 (F := F)) (Host.reduce FloatOps.maximumf z (val_main_cst_24 (F := F)) reducesTo_S64x32_S64_d1 h_S_)
  let ez := Host.exp (subf z (broadcastInDim S64x32 ![0, 1] bcast_S64x1_S64x32_0_1 (broadcastInDim S64x1 ![0] bcast_S64_S64x1_0 mx)))
  Host.divf ez (broadcastInDim S64x32 ![0, 1] bcast_S64x1_S64x32_0_1 (broadcastInDim S64x1 ![0] bcast_S64_S64x1_0
    (Host.reduceAdd ez (val_main_cst_26 (F := F)) reducesTo_S64x32_S64_d1 h_S_)))

end Named

/-- The first layer's output. -/
def layer1 (x0 : (⟨S100000x128, .f32⟩ : BufTy).Contents (Elt Ideal)) (e : (⟨S2x1600000, .i32⟩ : BufTy).Contents (Elt Ideal)) (w : (⟨S128x128, .f32⟩ : BufTy).Contents (Elt Ideal)) (b : (⟨S128, .f32⟩ : BufTy).Contents (Elt Ideal)) :
    (⟨S100000x128, .f32⟩ : BufTy).Contents (Elt Ideal) :=
  combine (agg1 (F := Ideal) (mm x0 w) e) (mm x0 w) (col (val_main_v41 (F := Ideal) e)) (row b)

/-- The second layer's output. -/
def layer2 (h : (⟨S100000x128, .f32⟩ : BufTy).Contents (Elt Ideal)) (e : (⟨S2x1600000, .i32⟩ : BufTy).Contents (Elt Ideal)) (w : (⟨S128x128, .f32⟩ : BufTy).Contents (Elt Ideal)) (b : (⟨S128, .f32⟩ : BufTy).Contents (Elt Ideal)) :
    (⟨S100000x128, .f32⟩ : BufTy).Contents (Elt Ideal) :=
  combine (agg2 (F := Ideal) (mm h w) e) (mm h w) (col (val_main_v91 (F := Ideal) e)) (row b)

/-- The reference's first rectified layer is `layer1` of its arguments. -/
theorem v49_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4 = layer1 x0 x1 x3 x4 := by
  have hd : val_main_v0 (F := Ideal) x0 x3 = mm x0 x3 :=
    hostDot_eq_mm dot_S100000x128_S128x128_S100000x128_1_0_0_1_n_n rfl rfl rfl rfl rfl rfl none x0 x3
  unfold val_main_v49 val_main_v48 val_main_v47 val_main_v46 val_main_v45 val_main_v44 val_main_v43 val_main_v42
    val_main_v40 val_main_v37 val_main_v34 val_main_call0_v0 val_main_call0_cst
  rw [hd]
  exact hostCombine _ _ _ _ _ _ _ _ _

/-- The reference's second rectified layer is `layer2` of the first layer's output. -/
theorem v99_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v99 (F := Ideal) x0 x1 x3 x4 x5 x6 = layer2 (layer1 x0 x1 x3 x4) x1 x5 x6 := by
  have hd : val_main_v50 (F := Ideal) x0 x1 x3 x4 x5 = mm (layer1 x0 x1 x3 x4) x5 := by
    unfold val_main_v50
    rw [v49_eq]
    exact hostDot_eq_mm dot_S100000x128_S128x128_S100000x128_1_0_0_1_n_n rfl rfl rfl rfl rfl rfl none _ x5
  unfold val_main_v99 val_main_v98 val_main_v97 val_main_v96 val_main_v95 val_main_v94 val_main_v93 val_main_v92
    val_main_v90 val_main_v87 val_main_v84 val_main_call1_v0 val_main_call1_cst
  rw [hd]
  exact hostCombine _ _ _ _ _ _ _ _ _

/-- The reference's result is the read-out of its second layer. -/
theorem v131_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S128x32, .f32⟩ : BufTy).Contents (Elt Ideal)) (x10 : (⟨S32, .f32⟩ : BufTy).Contents (Elt Ideal)) :
    val_main_v131 (F := Ideal) x0 x1 x2 x3 x4 x5 x6 x7 x8 x9 x10
      = readout (F := Ideal) (layer2 (layer1 x0 x1 x3 x4) x1 x5 x6) x2 x7 x8 x9 x10 := by
  rw [← v99_eq]
  rfl

end Cert.ReferenceIdeal.Shape

end
-- ==== Proof.Stage0.lean ====
/-
  The first matrix-product stage, read as a value.  The stage walks the node axis in ten blocks of 10000 rows; at block
  `t` it multiplies rows `10000 t … 10000 t + 9999` of the left array by the whole right array and writes the product
  to the same rows of the result.  Rounding the operands to a narrower format is the identity on the extended reals and
  the product accumulates into zero, so each block is the matching block of rows of the matrix product `mm`, and the
  ten blocks tile the result: the array the stage leaves is `mm` of the arrays it found.
-/
import proofs.«120384_j25744033972726_1_alg».proof.Proof.Gen.KernelIdeal.Frame
import proofs.«120384_j25744033972726_1_alg».proof.Proof.Layer
import Idealize.ShloMosaic.Lib.Pipeline.Value

set_option maxRecDepth 16384

noncomputable section

namespace Cert.KernelIdeal.Stage0

open Cert.KernelIdeal Cert.KernelIdeal.Gen
open Idealize.ShloMosaic Idealize.ShloMosaic.TcCoe Idealize.ShloMosaic.ValueIdx Idealize.SL.Sem
open Cert.Dense Cert.RowScale

variable (V : (c : Dev nD) → (b : Ref sig .tc) → Buf (Elt Ideal) ((c : Thread nD τ).loc b))

theorem origin : (![0, 0] : Fin 2 → Nat) = fun _ => 0 := funext fun a => by fin_cases a <;> rfl

/-- The body's stored value is the matrix product of the two loaded blocks. -/
theorem body_eq (x : Vec Ideal S10000x128 .f32) (w : Vec Ideal S128x128 .f32) : k0_pay1 (F := Ideal) x w = mm x w := by
  unfold k0_pay1
  exact matmul_zero_eq_mm dot_S10000x128_S128x128_S10000x128_1_0_0_1_n_n rfl rfl rfl rfl rfl rfl none _ _

/-- The printed block-index maps over the grid: the left operand and the result move down the node axis with the
    point; the right operand stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the left operand's block at point `t` is row `10000 t + r` of its array. -/
theorem left_block (c : Dev nD) (t : Fin cfg0.N) (y : S10000x128.Idx) (i : S100000x128.Idx)
    (h0 : (i 0).val = t.val * 10000 + (y 0).val) (h1 : (i 1).val = (y 1).val) :
    iblk0 V c 0 t y = V c main_arg0 i := by
  show V c main_arg0 (((cfg0.win 0).blk t).view.emb y) = V c main_arg0 i
  refine congrArg _ (funext fun a => Fin.ext ?_)
  obtain ⟨e0, e1, e2, e3, e4, e5⟩ := index_facts t
  match a with
  | ⟨0, _⟩ => show win0_0.index t (0 : Fin 2) * 10000 + 1 * (y 0).val = (i 0).val; omega
  | ⟨1, _⟩ => show win0_0.index t (1 : Fin 2) * 128 + 1 * (y 1).val = (i 1).val; omega

/-- The right operand's block at every point is its whole array. -/
theorem right_block (c : Dev nD) (t : Fin cfg0.N) (y : S128x128.Idx) (i : S128x128.Idx)
    (h0 : (i 0).val = (y 0).val) (h1 : (i 1).val = (y 1).val) :
    iblk0 V c 1 t y = V c main_arg3 i := by
  show V c main_arg3 (((cfg0.win 1).blk t).view.emb y) = V c main_arg3 i
  refine congrArg _ (funext fun a => Fin.ext ?_)
  obtain ⟨e0, e1, e2, e3, e4, e5⟩ := index_facts t
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- Where the result's block at point `t` sits in its array. -/
theorem out_emb (t : Fin cfg0.N) (j : S10000x128.Idx) :
    ((((cfg0.win 2).blk t).view.emb j) 0).val = t.val * 10000 + (j 0).val
    ∧ ((((cfg0.win 2).blk t).view.emb j) 1).val = (j 1).val := by
  obtain ⟨e0, e1, e2, e3, e4, e5⟩ := index_facts t
  constructor
  · show win0_2.index t (0 : Fin 2) * 10000 + 1 * (j 0).val = _; omega
  · show win0_2.index t (1 : Fin 2) * 128 + 1 * (j 1).val = _; omega

/-- What point `t` writes back is block `t` of the matrix product of the arrays the stage found. -/
theorem flushed_eq (c : Dev nD) (t : Fin cfg0.N) :
    (dat0 V c).flushed 2 t = ((cfg0.win 2).blk t).view.read (Elt Ideal) (mm (V c main_arg0) (V c main_arg3)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  rw [body_eq]
  funext j
  show mm (iblk0 V c 0 t) (iblk0 V c 1 t) j = mm (V c main_arg0) (V c main_arg3) (((cfg0.win 2).blk t).view.emb j)
  obtain ⟨o0, o1⟩ := out_emb t j
  refine mm_at _ _ _ _ j _ (fun k => ?_) (fun k => ?_)
  · exact left_block V c t _ _ o0 rfl
  · exact right_block V c t _ _ rfl o1

/-- An index of the result is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Every row of the result lies in the block of the point `row / 10000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by rw [show cfg0.N = 10 from N_0]; omega
  refine ⟨⟨(i 0).val / 10000, hN⟩, flush0_2 _, ?_⟩
  rw [mem_block]
  obtain ⟨e0, e1, e2, e3, e4, e5⟩ := index_facts ⟨(i 0).val / 10000, hN⟩
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e5]
    omega

/-- The array the stage leaves is the matrix product of the arrays it found. -/
theorem final (c : Dev nD) : (dat0 V c).arrAt 2 cfg0.N = mm (V c main_arg0) (V c main_arg3) :=
  (dat0 V c).arrAt_eq_of_cover 2 _ (fun t _ => flushed_eq V c t) cover

end Cert.KernelIdeal.Stage0

end
-- ==== Proof.Stage1.lean ====
/-
  The first combine stage, read as a value.  The stage walks the node axis in ten blocks of 10000 rows; at block `t` it
  reads rows `10000 t … 10000 t + 9999` of the aggregated features, of the transformed features and of the column of
  per-node factors, and the whole bias row, and writes `max (agg + h · factor + bias, 0)` to the same rows of the
  result.  That value depends, row by row, on the same row of each operand only, so each block is the matching block of
  `combine` of the whole arrays, and the ten blocks tile the result.
-/
import proofs.«120384_j25744033972726_1_alg».proof.Proof.Gen.KernelIdeal.Frame
import proofs.«120384_j25744033972726_1_alg».proof.Proof.Layer
import Idealize.ShloMosaic.Lib.Pipeline.Value

set_option maxRecDepth 16384

noncomputable section

namespace Cert.KernelIdeal.Stage1

open Cert.KernelIdeal Cert.KernelIdeal.Gen
open Idealize.ShloMosaic Idealize.ShloMosaic.TcCoe Idealize.ShloMosaic.ValueIdx Idealize.SL.Sem
open Cert.Dense Cert.RowScale Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The body's stored value is `combine` of the four loaded blocks. -/
theorem body_eq (a h : Vec Ideal S10000x128 .f32) (s : Vec Ideal S10000x1 .f32) (b : Vec Ideal S1x128 .f32) :
    k1_pay1 (F := Ideal) a h s b = combine a h s b := by
  unfold k1_pay1
  exact vecCombine a h s b _ _ _ _ _

/-- The printed block-index maps over the grid: the three row-blocked operands and the result move down the node
    axis with the point; the bias row stays. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of the aggregated features' block at point `t` is row `10000 t + r` of the array. -/
theorem agg_block (c : Dev nD) (t : Fin cfg1.N) (y : S10000x128.Idx) (i : S100000x128.Idx)
    (h0 : (i 0).val = t.val * 10000 + (y 0).val) (h1 : (i 1).val = (y 1).val) :
    iblk1 V c 0 t y = V c main_v40 i := by
  show V c main_v40 (((cfg1.win 0).blk t).view.emb y) = V c main_v40 i
  refine congrArg _ (funext fun a => Fin.ext ?_)
  obtain ⟨e0, e1, e2, e3, e4, e5, e6, e7, e8, e9⟩ := index_facts t
  match a with
  | ⟨0, _⟩ => show win1_0.index t (0 : Fin 2) * 10000 + 1 * (y 0).val = (i 0).val; omega
  | ⟨1, _⟩ => show win1_0.index t (1 : Fin 2) * 128 + 1 * (y 1).val = (i 1).val; omega

/-- The same for the transformed features. -/
theorem lin_block (c : Dev nD) (t : Fin cfg1.N) (y : S10000x128.Idx) (i : S100000x128.Idx)
    (h0 : (i 0).val = t.val * 10000 + (y 0).val) (h1 : (i 1).val = (y 1).val) :
    iblk1 V c 1 t y = V c main_v0 i := by
  show V c main_v0 (((cfg1.win 1).blk t).view.emb y) = V c main_v0 i
  refine congrArg _ (funext fun a => Fin.ext ?_)
  obtain ⟨e0, e1, e2, e3, e4, e5, e6, e7, e8, e9⟩ := index_facts t
  match a with
  | ⟨0, _⟩ => show win1_1.index t (0 : Fin 2) * 10000 + 1 * (y 0).val = (i 0).val; omega
  | ⟨1, _⟩ => show win1_1.index t (1 : Fin 2) * 128 + 1 * (y 1).val = (i 1).val; omega

/-- The same for the column of per-node factors. -/
theorem scale_block (c : Dev nD) (t : Fin cfg1.N) (y : S10000x1.Idx) (i : S100000x1.Idx)
    (h0 : (i 0).val = t.val * 10000 + (y 0).val) (h1 : (i 1).val = (y 1).val) :
    iblk1 V c 2 t y = V c main_v42 i := by
  show V c main_v42 (((cfg1.win 2).blk t).view.emb y) = V c main_v42 i
  refine congrArg _ (funext fun a => Fin.ext ?_)
  obtain ⟨e0, e1, e2, e3, e4, e5, e6, e7, e8, e9⟩ := index_facts t
  match a with
  | ⟨0, _⟩ => show win1_2.index t (0 : Fin 2) * 10000 + 1 * (y 0).val = (i 0).val; omega
  | ⟨1, _⟩ => show win1_2.index t (1 : Fin 2) * 1 + 1 * (y 1).val = (i 1).val; omega

/-- The bias row's block at every point is its whole array. -/
theorem bias_block (c : Dev nD) (t : Fin cfg1.N) (y : S1x128.Idx) (i : S1x128.Idx)
    (h0 : (i 0).val = (y 0).val) (h1 : (i 1).val = (y 1).val) :
    iblk1 V c 3 t y = V c main_v43 i := by
  show V c main_v43 (((cfg1.win 3).blk t).view.emb y) = V c main_v43 i
  refine congrArg _ (funext fun a => Fin.ext ?_)
  obtain ⟨e0, e1, e2, e3, e4, e5, e6, e7, e8, e9⟩ := index_facts t
  match a with
  | ⟨0, _⟩ => show win1_3.index t (0 : Fin 2) * 1 + 1 * (y 0).val = (i 0).val; omega
  | ⟨1, _⟩ => show win1_3.index t (1 : Fin 2) * 128 + 1 * (y 1).val = (i 1).val; omega

/-- Where the result's block at point `t` sits in its array. -/
theorem out_emb (t : Fin cfg1.N) (j : S10000x128.Idx) :
    ((((cfg1.win 4).blk t).view.emb j) 0).val = t.val * 10000 + (j 0).val
    ∧ ((((cfg1.win 4).blk t).view.emb j) 1).val = (j 1).val := by
  obtain ⟨e0, e1, e2, e3, e4, e5, e6, e7, e8, e9⟩ := index_facts t
  constructor
  · show win1_4.index t (0 : Fin 2) * 10000 + 1 * (j 0).val = _; omega
  · show win1_4.index t (1 : Fin 2) * 128 + 1 * (j 1).val = _; omega

/-- What point `t` writes back is block `t` of `combine` of the arrays the stage found. -/
theorem flushed_eq (c : Dev nD) (t : Fin cfg1.N) :
    (dat1 V c).flushed 4 t = ((cfg1.win 4).blk t).view.read (Elt Ideal)
      (combine (V c main_v40) (V c main_v0) (V c main_v42) (V c main_v43)) := by
  show (cfg1.win 4).cut (grid1.coords t) ((dat1 V c).after 4 t) = _
  rw [after1_4]
  unfold out1_4
  rw [View.canon_unit_zero origin]
  simp only [View.ld_unit_zero (S := S10000x128) origin, View.ld_unit_zero (S := S10000x1) origin,
    View.ld_unit_zero (S := S1x128) origin]
  rw [body_eq]
  funext j
  show combine (iblk1 V c 0 t) (iblk1 V c 1 t) (iblk1 V c 2 t) (iblk1 V c 3 t) j
    = combine (V c main_v40) (V c main_v0) (V c main_v42) (V c main_v43) (((cfg1.win 4).blk t).view.emb j)
  obtain ⟨o0, o1⟩ := out_emb t j
  refine combine_at _ _ _ _ _ _ _ _ j _ ?_ ?_ ?_ ?_
  · exact agg_block V c t _ _ o0 o1
  · exact lin_block V c t _ _ o0 o1
  · exact scale_block V c t _ _ o0 rfl
  · exact bias_block V c t _ _ rfl o1

/-- An index of the result is in point `t`'s block iff each coordinate is in the block's range on its axis. -/
theorem mem_block (t : Fin cfg1.N) (i : S100000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v44).slice (win1_4.rect t)).set ↔ _
  rw [View.set_slice_whole, Rect.mem_set_unit]
  exact Iff.rfl

/-- Every row of the result lies in the block of the point `row / 10000`. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 10000 < cfg1.N := by rw [show cfg1.N = 10 from N_1]; omega
  refine ⟨⟨(i 0).val / 10000, hN⟩, flush1_4 _, ?_⟩
  rw [mem_block]
  obtain ⟨e0, e1, e2, e3, e4, e5, e6, e7, e8, e9⟩ := index_facts ⟨(i 0).val / 10000, hN⟩
  intro a
  match a with
  | ⟨0, _⟩ =>
    show win1_4.index ⟨(i 0).val / 10000, hN⟩ (0 : Fin 2) * 10000 ≤ (i 0).val
      ∧ (i 0).val < win1_4.index ⟨(i 0).val / 10000, hN⟩ (0 : Fin 2) * 10000 + 10000
    rw [e8]
    show (i 0).val / 10000 * 10000 ≤ (i 0).val ∧ (i 0).val < (i 0).val / 10000 * 10000 + 10000
    omega
  | ⟨1, _⟩ =>
    show win1_4.index ⟨(i 0).val / 10000, hN⟩ (1 : Fin 2) * 128 ≤ (i 1).val
      ∧ (i 1).val < win1_4.index ⟨(i 0).val / 10000, hN⟩ (1 : Fin 2) * 128 + 128
    rw [e9]
    omega

/-- The array the stage leaves is `combine` of the arrays it found. -/
theorem final (c : Dev nD) :
    (dat1 V c).arrAt 4 cfg1.N = combine (V c main_v40) (V c main_v0) (V c main_v42) (V c main_v43) :=
  (dat1 V c).arrAt_eq_of_cover 4 _ (fun t _ => flushed_eq V c t) cover

end Cert.KernelIdeal.Stage1

end
-- ==== Proof.Stage2.lean ====
/-
  The second matrix-product stage, read as a value.  The stage walks the node axis in ten blocks of 10000 rows; at block
  `t` it multiplies rows `10000 t … 10000 t + 9999` of the left array by the whole right array and writes the product
  to the same rows of the result.  Rounding the operands to a narrower format (and a cast of the block to its own shape) is the identity on the extended reals and
  the product accumulates into zero, so each block is the matching block of rows of the matrix product `mm`, and the
  ten blocks tile the result: the array the stage leaves is `mm` of the arrays it found.
-/
import proofs.«120384_j25744033972726_1_alg».proof.Proof.Gen.KernelIdeal.Frame
import proofs.«120384_j25744033972726_1_alg».proof.Proof.Layer
import Idealize.ShloMosaic.Lib.Pipeline.Value

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Cert.Dense Cert.RowScale

variable (V : (c : Dev nD) → (b : Ref sig .tc) → Buf (Elt Ideal) ((c : Thread nD τ).loc b))

theorem origin : (![0, 0] : Fin 2 → Nat) = fun _ => 0 := funext fun a => by fin_cases a <;> rfl

/-- The body's stored value is the matrix product of the two loaded blocks. -/
theorem body_eq (x : Vec Ideal S10000x128 .f32) (w : Vec Ideal S128x128 .f32) : k2_pay1 (F := Ideal) x w = mm x w := by
  unfold k2_pay1
  rw [shapeCast_self x]
  exact matmul_zero_eq_mm dot_S10000x128_S128x128_S10000x128_1_0_0_1_n_n rfl rfl rfl rfl rfl rfl none _ _

/-- The printed block-index maps over the grid: the left operand and the result move down the node axis with the
    point; the right operand stays. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of the left operand's block at point `t` is row `10000 t + r` of its array. -/
theorem left_block (c : Dev nD) (t : Fin cfg2.N) (y : S10000x128.Idx) (i : S100000x128.Idx)
    (h0 : (i 0).val = t.val * 10000 + (y 0).val) (h1 : (i 1).val = (y 1).val) :
    iblk2 V c 0 t y = V c main_v44 i := by
  show V c main_v44 (((cfg2.win 0).blk t).view.emb y) = V c main_v44 i
  refine congrArg _ (funext fun a => Fin.ext ?_)
  obtain ⟨e0, e1, e2, e3, e4, e5⟩ := index_facts t
  match a with
  | ⟨0, _⟩ => show win2_0.index t (0 : Fin 2) * 10000 + 1 * (y 0).val = (i 0).val; omega
  | ⟨1, _⟩ => show win2_0.index t (1 : Fin 2) * 128 + 1 * (y 1).val = (i 1).val; omega

/-- The right operand's block at every point is its whole array. -/
theorem right_block (c : Dev nD) (t : Fin cfg2.N) (y : S128x128.Idx) (i : S128x128.Idx)
    (h0 : (i 0).val = (y 0).val) (h1 : (i 1).val = (y 1).val) :
    iblk2 V c 1 t y = V c main_arg5 i := by
  show V c main_arg5 (((cfg2.win 1).blk t).view.emb y) = V c main_arg5 i
  refine congrArg _ (funext fun a => Fin.ext ?_)
  obtain ⟨e0, e1, e2, e3, e4, e5⟩ := index_facts t
  match a with
  | ⟨0, _⟩ => show win2_1.index t (0 : Fin 2) * 128 + 1 * (y 0).val = (i 0).val; omega
  | ⟨1, _⟩ => show win2_1.index t (1 : Fin 2) * 128 + 1 * (y 1).val = (i 1).val; omega

/-- Where the result's block at point `t` sits in its array. -/
theorem out_emb (t : Fin cfg2.N) (j : S10000x128.Idx) :
    ((((cfg2.win 2).blk t).view.emb j) 0).val = t.val * 10000 + (j 0).val
    ∧ ((((cfg2.win 2).blk t).view.emb j) 1).val = (j 1).val := by
  obtain ⟨e0, e1, e2, e3, e4, e5⟩ := index_facts t
  constructor
  · show win2_2.index t (0 : Fin 2) * 10000 + 1 * (j 0).val = _; omega
  · show win2_2.index t (1 : Fin 2) * 128 + 1 * (j 1).val = _; omega

/-- What point `t` writes back is block `t` of the matrix product of the arrays the stage found. -/
theorem flushed_eq (c : Dev nD) (t : Fin cfg2.N) :
    (dat2 V c).flushed 2 t = ((cfg2.win 2).blk t).view.read (Elt Ideal) (mm (V c main_v44) (V c main_arg5)) := by
  show (cfg2.win 2).cut (grid2.coords t) ((dat2 V c).after 2 t) = _
  rw [after2_2]
  unfold out2_2
  rw [View.canon_unit_zero origin]
  simp only [View.ld_unit_zero (S := S10000x128) origin, View.ld_unit_zero (S := S128x128) origin]
  rw [body_eq]
  funext j
  show mm (iblk2 V c 0 t) (iblk2 V c 1 t) j = mm (V c main_v44) (V c main_arg5) (((cfg2.win 2).blk t).view.emb j)
  obtain ⟨o0, o1⟩ := out_emb t j
  refine mm_at _ _ _ _ j _ (fun k => ?_) (fun k => ?_)
  · exact left_block V c t _ _ o0 rfl
  · exact right_block V c t _ _ rfl o1

/-- An index of the result is in point `t`'s block iff each coordinate is in the block's range on its axis. -/
theorem mem_block (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v45).slice (win2_2.rect t)).set ↔ _
  rw [View.set_slice_whole, Rect.mem_set_unit]
  exact Iff.rfl

/-- Every row of the result lies in the block of the point `row / 10000`. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < cfg2.N := by rw [show cfg2.N = 10 from N_2]; omega
  refine ⟨⟨(i 0).val / 10000, hN⟩, flush2_2 _, ?_⟩
  rw [mem_block]
  obtain ⟨e0, e1, e2, e3, e4, e5⟩ := index_facts ⟨(i 0).val / 10000, hN⟩
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    rw [e5]
    omega

/-- The array the stage leaves is the matrix product of the arrays it found. -/
theorem final (c : Dev nD) : (dat2 V c).arrAt 2 cfg2.N = mm (V c main_v44) (V c main_arg5) :=
  (dat2 V c).arrAt_eq_of_cover 2 _ (fun t _ => flushed_eq V c t) cover

end Cert.KernelIdeal.Stage2

end
-- ==== Proof.Stage3.lean ====
/-
  The second combine stage, read as a value.  The stage walks the node axis in ten blocks of 10000 rows; at block `t` it
  reads rows `10000 t … 10000 t + 9999` of the aggregated features, of the transformed features and of the column of
  per-node factors, and the whole bias row, and writes `max (agg + h · factor + bias, 0)` to the same rows of the
  result.  That value depends, row by row, on the same row of each operand only, so each block is the matching block of
  `combine` of the whole arrays, and the ten blocks tile the result.
-/
import proofs.«120384_j25744033972726_1_alg».proof.Proof.Gen.KernelIdeal.Frame
import proofs.«120384_j25744033972726_1_alg».proof.Proof.Layer
import Idealize.ShloMosaic.Lib.Pipeline.Value

set_option maxRecDepth 16384

noncomputable section

namespace Cert.KernelIdeal.Stage3

open Cert.KernelIdeal Cert.KernelIdeal.Gen
open Idealize.ShloMosaic Idealize.ShloMosaic.TcCoe Idealize.ShloMosaic.ValueIdx Idealize.SL.Sem
open Cert.Dense Cert.RowScale Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The body's stored value is `combine` of the four loaded blocks. -/
theorem body_eq (a h : Vec Ideal S10000x128 .f32) (s : Vec Ideal S10000x1 .f32) (b : Vec Ideal S1x128 .f32) :
    k3_pay1 (F := Ideal) a h s b = combine a h s b := by
  unfold k3_pay1
  exact vecCombine a h s b _ _ _ _ _

/-- The printed block-index maps over the grid: the three row-blocked operands and the result move down the node
    axis with the point; the bias row stays. -/
theorem index_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row `r` of the aggregated features' block at point `t` is row `10000 t + r` of the array. -/
theorem agg_block (c : Dev nD) (t : Fin cfg3.N) (y : S10000x128.Idx) (i : S100000x128.Idx)
    (h0 : (i 0).val = t.val * 10000 + (y 0).val) (h1 : (i 1).val = (y 1).val) :
    iblk3 V c 0 t y = V c main_v85 i := by
  show V c main_v85 (((cfg3.win 0).blk t).view.emb y) = V c main_v85 i
  refine congrArg _ (funext fun a => Fin.ext ?_)
  obtain ⟨e0, e1, e2, e3, e4, e5, e6, e7, e8, e9⟩ := index_facts t
  match a with
  | ⟨0, _⟩ => show win3_0.index t (0 : Fin 2) * 10000 + 1 * (y 0).val = (i 0).val; omega
  | ⟨1, _⟩ => show win3_0.index t (1 : Fin 2) * 128 + 1 * (y 1).val = (i 1).val; omega

/-- The same for the transformed features. -/
theorem lin_block (c : Dev nD) (t : Fin cfg3.N) (y : S10000x128.Idx) (i : S100000x128.Idx)
    (h0 : (i 0).val = t.val * 10000 + (y 0).val) (h1 : (i 1).val = (y 1).val) :
    iblk3 V c 1 t y = V c main_v45 i := by
  show V c main_v45 (((cfg3.win 1).blk t).view.emb y) = V c main_v45 i
  refine congrArg _ (funext fun a => Fin.ext ?_)
  obtain ⟨e0, e1, e2, e3, e4, e5, e6, e7, e8, e9⟩ := index_facts t
  match a with
  | ⟨0, _⟩ => show win3_1.index t (0 : Fin 2) * 10000 + 1 * (y 0).val = (i 0).val; omega
  | ⟨1, _⟩ => show win3_1.index t (1 : Fin 2) * 128 + 1 * (y 1).val = (i 1).val; omega

/-- The same for the column of per-node factors. -/
theorem scale_block (c : Dev nD) (t : Fin cfg3.N) (y : S10000x1.Idx) (i : S100000x1.Idx)
    (h0 : (i 0).val = t.val * 10000 + (y 0).val) (h1 : (i 1).val = (y 1).val) :
    iblk3 V c 2 t y = V c main_v87 i := by
  show V c main_v87 (((cfg3.win 2).blk t).view.emb y) = V c main_v87 i
  refine congrArg _ (funext fun a => Fin.ext ?_)
  obtain ⟨e0, e1, e2, e3, e4, e5, e6, e7, e8, e9⟩ := index_facts t
  match a with
  | ⟨0, _⟩ => show win3_2.index t (0 : Fin 2) * 10000 + 1 * (y 0).val = (i 0).val; omega
  | ⟨1, _⟩ => show win3_2.index t (1 : Fin 2) * 1 + 1 * (y 1).val = (i 1).val; omega

/-- The bias row's block at every point is its whole array. -/
theorem bias_block (c : Dev nD) (t : Fin cfg3.N) (y : S1x128.Idx) (i : S1x128.Idx)
    (h0 : (i 0).val = (y 0).val) (h1 : (i 1).val = (y 1).val) :
    iblk3 V c 3 t y = V c main_v88 i := by
  show V c main_v88 (((cfg3.win 3).blk t).view.emb y) = V c main_v88 i
  refine congrArg _ (funext fun a => Fin.ext ?_)
  obtain ⟨e0, e1, e2, e3, e4, e5, e6, e7, e8, e9⟩ := index_facts t
  match a with
  | ⟨0, _⟩ => show win3_3.index t (0 : Fin 2) * 1 + 1 * (y 0).val = (i 0).val; omega
  | ⟨1, _⟩ => show win3_3.index t (1 : Fin 2) * 128 + 1 * (y 1).val = (i 1).val; omega

/-- Where the result's block at point `t` sits in its array. -/
theorem out_emb (t : Fin cfg3.N) (j : S10000x128.Idx) :
    ((((cfg3.win 4).blk t).view.emb j) 0).val = t.val * 10000 + (j 0).val
    ∧ ((((cfg3.win 4).blk t).view.emb j) 1).val = (j 1).val := by
  obtain ⟨e0, e1, e2, e3, e4, e5, e6, e7, e8, e9⟩ := index_facts t
  constructor
  · show win3_4.index t (0 : Fin 2) * 10000 + 1 * (j 0).val = _; omega
  · show win3_4.index t (1 : Fin 2) * 128 + 1 * (j 1).val = _; omega

/-- What point `t` writes back is block `t` of `combine` of the arrays the stage found. -/
theorem flushed_eq (c : Dev nD) (t : Fin cfg3.N) :
    (dat3 V c).flushed 4 t = ((cfg3.win 4).blk t).view.read (Elt Ideal)
      (combine (V c main_v85) (V c main_v45) (V c main_v87) (V c main_v88)) := by
  show (cfg3.win 4).cut (grid3.coords t) ((dat3 V c).after 4 t) = _
  rw [after3_4]
  unfold out3_4
  rw [View.canon_unit_zero origin]
  simp only [View.ld_unit_zero (S := S10000x128) origin, View.ld_unit_zero (S := S10000x1) origin,
    View.ld_unit_zero (S := S1x128) origin]
  rw [body_eq]
  funext j
  show combine (iblk3 V c 0 t) (iblk3 V c 1 t) (iblk3 V c 2 t) (iblk3 V c 3 t) j
    = combine (V c main_v85) (V c main_v45) (V c main_v87) (V c main_v88) (((cfg3.win 4).blk t).view.emb j)
  obtain ⟨o0, o1⟩ := out_emb t j
  refine combine_at _ _ _ _ _ _ _ _ j _ ?_ ?_ ?_ ?_
  · exact agg_block V c t _ _ o0 o1
  · exact lin_block V c t _ _ o0 o1
  · exact scale_block V c t _ _ o0 rfl
  · exact bias_block V c t _ _ rfl o1

/-- An index of the result is in point `t`'s block iff each coordinate is in the block's range on its axis. -/
theorem mem_block (t : Fin cfg3.N) (i : S100000x128.Idx) :
    i ∈ ((cfg3.win 4).blk t).view.set ↔ ∀ a : Fin 2, win3_4.index t a * S10000x128.size a ≤ (i a).val
      ∧ (i a).val < win3_4.index t a * S10000x128.size a + S10000x128.size a := by
  show i ∈ ((View.whole main_v89).slice (win3_4.rect t)).set ↔ _
  rw [View.set_slice_whole, Rect.mem_set_unit]
  exact Iff.rfl

/-- Every row of the result lies in the block of the point `row / 10000`. -/
theorem cover (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 10000 < cfg3.N := by rw [show cfg3.N = 10 from N_3]; omega
  refine ⟨⟨(i 0).val / 10000, hN⟩, flush3_4 _, ?_⟩
  rw [mem_block]
  obtain ⟨e0, e1, e2, e3, e4, e5, e6, e7, e8, e9⟩ := index_facts ⟨(i 0).val / 10000, hN⟩
  intro a
  match a with
  | ⟨0, _⟩ =>
    show win3_4.index ⟨(i 0).val / 10000, hN⟩ (0 : Fin 2) * 10000 ≤ (i 0).val
      ∧ (i 0).val < win3_4.index ⟨(i 0).val / 10000, hN⟩ (0 : Fin 2) * 10000 + 10000
    rw [e8]
    show (i 0).val / 10000 * 10000 ≤ (i 0).val ∧ (i 0).val < (i 0).val / 10000 * 10000 + 10000
    omega
  | ⟨1, _⟩ =>
    show win3_4.index ⟨(i 0).val / 10000, hN⟩ (1 : Fin 2) * 128 ≤ (i 1).val
      ∧ (i 1).val < win3_4.index ⟨(i 0).val / 10000, hN⟩ (1 : Fin 2) * 128 + 128
    rw [e9]
    omega

/-- The array the stage leaves is `combine` of the arrays it found. -/
theorem final (c : Dev nD) :
    (dat3 V c).arrAt 4 cfg3.N = combine (V c main_v85) (V c main_v45) (V c main_v87) (V c main_v88) :=
  (dat3 V c).arrAt_eq_of_cover 4 _ (fun t _ => flushed_eq V c t) cover

end Cert.KernelIdeal.Stage3

end
-- ==== Proof.Fold.lean ====
/-
  The program's result as a function of its arguments: the contents of every buffer a later step reads, walked back
  through the stages and the stretches of host operations to the launch memory.

  The first matrix-product stage leaves `X W₁`.  The first stretch of host operations computes, from it and the edge
  list, the neighbour aggregation, the column of per-node factors and the bias row; they are the same operations, on the
  same operands, as the reference's, so the first combine stage leaves the reference's first layer.  The second
  matrix-product stage, the second stretch and the second combine stage repeat this on that layer's output with the
  second weights and bias.  The last stretches are the reference's read-out applied to the second layer's output.
  Buffers that no stage and no host operation writes — the arguments — are read back unchanged at every boundary.
-/
import proofs.«120384_j25744033972726_1_alg».proof.Proof.Gen.KernelIdeal.Frame
import proofs.«120384_j25744033972726_1_alg».proof.Proof.Stage0
import proofs.«120384_j25744033972726_1_alg».proof.Proof.Stage1
import proofs.«120384_j25744033972726_1_alg».proof.Proof.Stage2
import proofs.«120384_j25744033972726_1_alg».proof.Proof.Stage3
import proofs.«120384_j25744033972726_1_alg».proof.Proof.RefShape
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Dense Cert.RowScale Cert.Gcn

/-! ## The stretches of host operations, from any contents `W` -/

section Stretches

variable (W : Valuation τ sig (Elt Ideal))

/-- The first stretch's aggregation is the reference's, of the transformed features and the edge list it finds. -/
theorem s1_agg : after (hostOps1 (F := Ideal)) W (Proc.devRef .tc main_v40)
    = Cert.ReferenceIdeal.Shape.agg1 (F := Ideal) (W (Proc.devRef .tc main_v0)) (W (Proc.devRef .tc main_arg1)) := by
  after_results_simp
  rfl

/-- It leaves the transformed features in place. -/
theorem s1_lin : after (hostOps1 (F := Ideal)) W (Proc.devRef .tc main_v0) = W (Proc.devRef .tc main_v0) := by
  after_results_simp

/-- Its column of per-node factors is the reference's squared inverse root degrees, laid out as a column. -/
theorem s1_scale : after (hostOps1 (F := Ideal)) W (Proc.devRef .tc main_v42)
    = col (Cert.ReferenceIdeal.Read.val_main_v41 (F := Ideal) (W (Proc.devRef .tc main_arg1))) := by
  after_results_simp
  exact shapeCast_col (Cert.ReferenceIdeal.Read.val_main_v41 (F := Ideal) (W (Proc.devRef .tc main_arg1))) shapeCasts_S100000_S100000x1

/-- Its bias row is the bias vector laid out as a row. -/
theorem s1_bias : after (hostOps1 (F := Ideal)) W (Proc.devRef .tc main_v43) = row (W (Proc.devRef .tc main_arg4)) := by
  after_results_simp
  exact shapeCast_row (W (Proc.devRef .tc main_arg4)) shapeCasts_S128_S1x128

theorem s1_keep1 : after (hostOps1 (F := Ideal)) W (Proc.devRef .tc main_arg1) = W (Proc.devRef .tc main_arg1) := by
  after_results_simp
theorem s1_keep2 : after (hostOps1 (F := Ideal)) W (Proc.devRef .tc main_arg2) = W (Proc.devRef .tc main_arg2) := by
  after_results_simp
theorem s1_keep5 : after (hostOps1 (F := Ideal)) W (Proc.devRef .tc main_arg5) = W (Proc.devRef .tc main_arg5) := by
  after_results_simp
theorem s1_keep6 : after (hostOps1 (F := Ideal)) W (Proc.devRef .tc main_arg6) = W (Proc.devRef .tc main_arg6) := by
  after_results_simp
theorem s1_keep7 : after (hostOps1 (F := Ideal)) W (Proc.devRef .tc main_arg7) = W (Proc.devRef .tc main_arg7) := by
  after_results_simp
theorem s1_keep8 : after (hostOps1 (F := Ideal)) W (Proc.devRef .tc main_arg8) = W (Proc.devRef .tc main_arg8) := by
  after_results_simp
theorem s1_keep9 : after (hostOps1 (F := Ideal)) W (Proc.devRef .tc main_arg9) = W (Proc.devRef .tc main_arg9) := by
  after_results_simp
theorem s1_keep10 : after (hostOps1 (F := Ideal)) W (Proc.devRef .tc main_arg10) = W (Proc.devRef .tc main_arg10) := by
  after_results_simp

/-- The second stretch's aggregation is the reference's second one. -/
theorem s3_agg : after (hostOps3 (F := Ideal)) W (Proc.devRef .tc main_v85)
    = Cert.ReferenceIdeal.Shape.agg2 (F := Ideal) (W (Proc.devRef .tc main_v45)) (W (Proc.devRef .tc main_arg1)) := by
  after_results_simp
  rfl

theorem s3_lin : after (hostOps3 (F := Ideal)) W (Proc.devRef .tc main_v45) = W (Proc.devRef .tc main_v45) := by
  after_results_simp

theorem s3_scale : after (hostOps3 (F := Ideal)) W (Proc.devRef .tc main_v87)
    = col (Cert.ReferenceIdeal.Read.val_main_v91 (F := Ideal) (W (Proc.devRef .tc main_arg1))) := by
  after_results_simp
  exact shapeCast_col (Cert.ReferenceIdeal.Read.val_main_v91 (F := Ideal) (W (Proc.devRef .tc main_arg1))) shapeCasts_S100000_S100000x1

theorem s3_bias : after (hostOps3 (F := Ideal)) W (Proc.devRef .tc main_v88) = row (W (Proc.devRef .tc main_arg6)) := by
  after_results_simp
  exact shapeCast_row (W (Proc.devRef .tc main_arg6)) shapeCasts_S128_S1x128

theorem s3_keep2 : after (hostOps3 (F := Ideal)) W (Proc.devRef .tc main_arg2) = W (Proc.devRef .tc main_arg2) := by
  after_results_simp
theorem s3_keep7 : after (hostOps3 (F := Ideal)) W (Proc.devRef .tc main_arg7) = W (Proc.devRef .tc main_arg7) := by
  after_results_simp
theorem s3_keep8 : after (hostOps3 (F := Ideal)) W (Proc.devRef .tc main_arg8) = W (Proc.devRef .tc main_arg8) := by
  after_results_simp
theorem s3_keep9 : after (hostOps3 (F := Ideal)) W (Proc.devRef .tc main_arg9) = W (Proc.devRef .tc main_arg9) := by
  after_results_simp
theorem s3_keep10 : after (hostOps3 (F := Ideal)) W (Proc.devRef .tc main_arg10) = W (Proc.devRef .tc main_arg10) := by
  after_results_simp

/-- The last stretches are the reference's read-out of the node features they find. -/
theorem s4_out : after (hostOps4_2 (F := Ideal)) (after (hostOps4_1 (F := Ideal)) (after (hostOps4 (F := Ideal)) W)) (Proc.devRef .tc main_v121)
    = Cert.ReferenceIdeal.Shape.readout (F := Ideal) (W (Proc.devRef .tc main_v89)) (W (Proc.devRef .tc main_arg2)) (W (Proc.devRef .tc main_arg7)) (W (Proc.devRef .tc main_arg8))
        (W (Proc.devRef .tc main_arg9)) (W (Proc.devRef .tc main_arg10)) := by
  after_results_simp
  rfl

end Stretches

/-! ## The contents at each boundary -/

variable (m : (ℓ : Loc nD τ sig) → Buf (Elt Ideal) ℓ) (ρ : Dev nD → PrngReg) (c : Dev nD)

theorem k1_1 : W1 m ρ c (Proc.devRef .tc main_arg1) = (m ((c : Thread nD τ).loc main_arg1)) := (W1_of_ne m ρ c main_arg1 (by decide)).trans rfl
theorem k1_2 : W1 m ρ c (Proc.devRef .tc main_arg2) = (m ((c : Thread nD τ).loc main_arg2)) := (W1_of_ne m ρ c main_arg2 (by decide)).trans rfl
theorem k1_4 : W1 m ρ c (Proc.devRef .tc main_arg4) = (m ((c : Thread nD τ).loc main_arg4)) := (W1_of_ne m ρ c main_arg4 (by decide)).trans rfl
theorem k1_5 : W1 m ρ c (Proc.devRef .tc main_arg5) = (m ((c : Thread nD τ).loc main_arg5)) := (W1_of_ne m ρ c main_arg5 (by decide)).trans rfl
theorem k1_6 : W1 m ρ c (Proc.devRef .tc main_arg6) = (m ((c : Thread nD τ).loc main_arg6)) := (W1_of_ne m ρ c main_arg6 (by decide)).trans rfl
theorem k1_7 : W1 m ρ c (Proc.devRef .tc main_arg7) = (m ((c : Thread nD τ).loc main_arg7)) := (W1_of_ne m ρ c main_arg7 (by decide)).trans rfl
theorem k1_8 : W1 m ρ c (Proc.devRef .tc main_arg8) = (m ((c : Thread nD τ).loc main_arg8)) := (W1_of_ne m ρ c main_arg8 (by decide)).trans rfl
theorem k1_9 : W1 m ρ c (Proc.devRef .tc main_arg9) = (m ((c : Thread nD τ).loc main_arg9)) := (W1_of_ne m ρ c main_arg9 (by decide)).trans rfl
theorem k1_10 : W1 m ρ c (Proc.devRef .tc main_arg10) = (m ((c : Thread nD τ).loc main_arg10)) := (W1_of_ne m ρ c main_arg10 (by decide)).trans rfl
theorem k2_1 : W2 m ρ c (Proc.devRef .tc main_arg1) = (m ((c : Thread nD τ).loc main_arg1)) := (s1_keep1 (W1 m ρ c)).trans (k1_1 m ρ c)
theorem k3_1 : W3 m ρ c (Proc.devRef .tc main_arg1) = (m ((c : Thread nD τ).loc main_arg1)) := (W3_of_ne m ρ c main_arg1 (by decide)).trans (k2_1 m ρ c)
theorem k2_2 : W2 m ρ c (Proc.devRef .tc main_arg2) = (m ((c : Thread nD τ).loc main_arg2)) := (s1_keep2 (W1 m ρ c)).trans (k1_2 m ρ c)
theorem k3_2 : W3 m ρ c (Proc.devRef .tc main_arg2) = (m ((c : Thread nD τ).loc main_arg2)) := (W3_of_ne m ρ c main_arg2 (by decide)).trans (k2_2 m ρ c)
theorem k2_5 : W2 m ρ c (Proc.devRef .tc main_arg5) = (m ((c : Thread nD τ).loc main_arg5)) := (s1_keep5 (W1 m ρ c)).trans (k1_5 m ρ c)
theorem k3_5 : W3 m ρ c (Proc.devRef .tc main_arg5) = (m ((c : Thread nD τ).loc main_arg5)) := (W3_of_ne m ρ c main_arg5 (by decide)).trans (k2_5 m ρ c)
theorem k2_6 : W2 m ρ c (Proc.devRef .tc main_arg6) = (m ((c : Thread nD τ).loc main_arg6)) := (s1_keep6 (W1 m ρ c)).trans (k1_6 m ρ c)
theorem k3_6 : W3 m ρ c (Proc.devRef .tc main_arg6) = (m ((c : Thread nD τ).loc main_arg6)) := (W3_of_ne m ρ c main_arg6 (by decide)).trans (k2_6 m ρ c)
theorem k2_7 : W2 m ρ c (Proc.devRef .tc main_arg7) = (m ((c : Thread nD τ).loc main_arg7)) := (s1_keep7 (W1 m ρ c)).trans (k1_7 m ρ c)
theorem k3_7 : W3 m ρ c (Proc.devRef .tc main_arg7) = (m ((c : Thread nD τ).loc main_arg7)) := (W3_of_ne m ρ c main_arg7 (by decide)).trans (k2_7 m ρ c)
theorem k2_8 : W2 m ρ c (Proc.devRef .tc main_arg8) = (m ((c : Thread nD τ).loc main_arg8)) := (s1_keep8 (W1 m ρ c)).trans (k1_8 m ρ c)
theorem k3_8 : W3 m ρ c (Proc.devRef .tc main_arg8) = (m ((c : Thread nD τ).loc main_arg8)) := (W3_of_ne m ρ c main_arg8 (by decide)).trans (k2_8 m ρ c)
theorem k2_9 : W2 m ρ c (Proc.devRef .tc main_arg9) = (m ((c : Thread nD τ).loc main_arg9)) := (s1_keep9 (W1 m ρ c)).trans (k1_9 m ρ c)
theorem k3_9 : W3 m ρ c (Proc.devRef .tc main_arg9) = (m ((c : Thread nD τ).loc main_arg9)) := (W3_of_ne m ρ c main_arg9 (by decide)).trans (k2_9 m ρ c)
theorem k2_10 : W2 m ρ c (Proc.devRef .tc main_arg10) = (m ((c : Thread nD τ).loc main_arg10)) := (s1_keep10 (W1 m ρ c)).trans (k1_10 m ρ c)
theorem k3_10 : W3 m ρ c (Proc.devRef .tc main_arg10) = (m ((c : Thread nD τ).loc main_arg10)) := (W3_of_ne m ρ c main_arg10 (by decide)).trans (k2_10 m ρ c)
theorem k4_1 : W4 m ρ c (Proc.devRef .tc main_arg1) = (m ((c : Thread nD τ).loc main_arg1)) := (W4_of_ne m ρ c main_arg1 (by decide)).trans (k3_1 m ρ c)
theorem k4_2 : W4 m ρ c (Proc.devRef .tc main_arg2) = (m ((c : Thread nD τ).loc main_arg2)) := (W4_of_ne m ρ c main_arg2 (by decide)).trans (k3_2 m ρ c)
theorem k4_6 : W4 m ρ c (Proc.devRef .tc main_arg6) = (m ((c : Thread nD τ).loc main_arg6)) := (W4_of_ne m ρ c main_arg6 (by decide)).trans (k3_6 m ρ c)
theorem k4_7 : W4 m ρ c (Proc.devRef .tc main_arg7) = (m ((c : Thread nD τ).loc main_arg7)) := (W4_of_ne m ρ c main_arg7 (by decide)).trans (k3_7 m ρ c)
theorem k4_8 : W4 m ρ c (Proc.devRef .tc main_arg8) = (m ((c : Thread nD τ).loc main_arg8)) := (W4_of_ne m ρ c main_arg8 (by decide)).trans (k3_8 m ρ c)
theorem k4_9 : W4 m ρ c (Proc.devRef .tc main_arg9) = (m ((c : Thread nD τ).loc main_arg9)) := (W4_of_ne m ρ c main_arg9 (by decide)).trans (k3_9 m ρ c)
theorem k4_10 : W4 m ρ c (Proc.devRef .tc main_arg10) = (m ((c : Thread nD τ).loc main_arg10)) := (W4_of_ne m ρ c main_arg10 (by decide)).trans (k3_10 m ρ c)
theorem k5_2 : W5 m ρ c (Proc.devRef .tc main_arg2) = (m ((c : Thread nD τ).loc main_arg2)) := (s3_keep2 (W4 m ρ c)).trans (k4_2 m ρ c)
theorem k6_2 : W6 m ρ c (Proc.devRef .tc main_arg2) = (m ((c : Thread nD τ).loc main_arg2)) := (W6_of_ne m ρ c main_arg2 (by decide)).trans (k5_2 m ρ c)
theorem k5_7 : W5 m ρ c (Proc.devRef .tc main_arg7) = (m ((c : Thread nD τ).loc main_arg7)) := (s3_keep7 (W4 m ρ c)).trans (k4_7 m ρ c)
theorem k6_7 : W6 m ρ c (Proc.devRef .tc main_arg7) = (m ((c : Thread nD τ).loc main_arg7)) := (W6_of_ne m ρ c main_arg7 (by decide)).trans (k5_7 m ρ c)
theorem k5_8 : W5 m ρ c (Proc.devRef .tc main_arg8) = (m ((c : Thread nD τ).loc main_arg8)) := (s3_keep8 (W4 m ρ c)).trans (k4_8 m ρ c)
theorem k6_8 : W6 m ρ c (Proc.devRef .tc main_arg8) = (m ((c : Thread nD τ).loc main_arg8)) := (W6_of_ne m ρ c main_arg8 (by decide)).trans (k5_8 m ρ c)
theorem k5_9 : W5 m ρ c (Proc.devRef .tc main_arg9) = (m ((c : Thread nD τ).loc main_arg9)) := (s3_keep9 (W4 m ρ c)).trans (k4_9 m ρ c)
theorem k6_9 : W6 m ρ c (Proc.devRef .tc main_arg9) = (m ((c : Thread nD τ).loc main_arg9)) := (W6_of_ne m ρ c main_arg9 (by decide)).trans (k5_9 m ρ c)
theorem k5_10 : W5 m ρ c (Proc.devRef .tc main_arg10) = (m ((c : Thread nD τ).loc main_arg10)) := (s3_keep10 (W4 m ρ c)).trans (k4_10 m ρ c)
theorem k6_10 : W6 m ρ c (Proc.devRef .tc main_arg10) = (m ((c : Thread nD τ).loc main_arg10)) := (W6_of_ne m ρ c main_arg10 (by decide)).trans (k5_10 m ρ c)

/-- After the first matrix-product stage: `X W₁`. -/
theorem lin1 : W1 m ρ c (Proc.devRef .tc main_v0) = mm (m ((c : Thread nD τ).loc main_arg0)) (m ((c : Thread nD τ).loc main_arg3)) :=
  (W1_arr m ρ c 2).trans (Stage0.final (V0 m ρ) c)

/-- After the first combine stage: the reference's first layer. -/
theorem out1 : W3 m ρ c (Proc.devRef .tc main_v44) = (Cert.ReferenceIdeal.Shape.layer1 (m ((c : Thread nD τ).loc main_arg0)) (m ((c : Thread nD τ).loc main_arg1)) (m ((c : Thread nD τ).loc main_arg3)) (m ((c : Thread nD τ).loc main_arg4))) := by
  refine (W3_arr m ρ c 4).trans ((Stage1.final (V2 m ρ) c).trans ?_)
  show combine (after hostOps1 (W1 m ρ c) (Proc.devRef .tc main_v40)) (after hostOps1 (W1 m ρ c) (Proc.devRef .tc main_v0))
      (after hostOps1 (W1 m ρ c) (Proc.devRef .tc main_v42)) (after hostOps1 (W1 m ρ c) (Proc.devRef .tc main_v43)) = _
  rw [s1_agg, s1_lin, s1_scale, s1_bias, lin1, k1_1, k1_4]
  rfl

/-- After the second matrix-product stage: that layer times `W₂`. -/
theorem lin2 : W4 m ρ c (Proc.devRef .tc main_v45) = mm (Cert.ReferenceIdeal.Shape.layer1 (m ((c : Thread nD τ).loc main_arg0)) (m ((c : Thread nD τ).loc main_arg1)) (m ((c : Thread nD τ).loc main_arg3)) (m ((c : Thread nD τ).loc main_arg4))) (m ((c : Thread nD τ).loc main_arg5)) := by
  refine (W4_arr m ρ c 2).trans ((Stage2.final (V3 m ρ) c).trans ?_)
  show mm (W3 m ρ c (Proc.devRef .tc main_v44)) (W3 m ρ c (Proc.devRef .tc main_arg5)) = _
  rw [out1, k3_5]

/-- After the second combine stage: the reference's second layer. -/
theorem out2 : W6 m ρ c (Proc.devRef .tc main_v89) = (Cert.ReferenceIdeal.Shape.layer2 (Cert.ReferenceIdeal.Shape.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) := by
  refine (W6_arr m ρ c 4).trans ((Stage3.final (V5 m ρ) c).trans ?_)
  show combine (after hostOps3 (W4 m ρ c) (Proc.devRef .tc main_v85)) (after hostOps3 (W4 m ρ c) (Proc.devRef .tc main_v45))
      (after hostOps3 (W4 m ρ c) (Proc.devRef .tc main_v87)) (after hostOps3 (W4 m ρ c) (Proc.devRef .tc main_v88)) = _
  rw [s3_agg, s3_lin, s3_scale, s3_bias, lin2, k4_1, k4_6]
  rfl

/-- The result buffer at the end: the reference's read-out of its second layer of its first layer. -/
theorem result : W9 m ρ c (Proc.devRef .tc main_v121)
    = Cert.ReferenceIdeal.Shape.readout (F := Ideal) (Cert.ReferenceIdeal.Shape.layer2 (Cert.ReferenceIdeal.Shape.layer1 (m ((c : Thread nD τ).loc main_arg0)) (m ((c : Thread nD τ).loc main_arg1)) (m ((c : Thread nD τ).loc main_arg3)) (m ((c : Thread nD τ).loc main_arg4))) (m ((c : Thread nD τ).loc main_arg1)) (m ((c : Thread nD τ).loc main_arg5)) (m ((c : Thread nD τ).loc main_arg6))) (m ((c : Thread nD τ).loc main_arg2)) (m ((c : Thread nD τ).loc main_arg7)) (m ((c : Thread nD τ).loc main_arg8)) (m ((c : Thread nD τ).loc main_arg9)) (m ((c : Thread nD τ).loc main_arg10)) := by
  show after hostOps4_2 (after hostOps4_1 (after hostOps4 (W6 m ρ c))) (Proc.devRef .tc main_v121) = _
  rw [s4_out, out2, k6_2, k6_7, k6_8, k6_9, k6_10]

end Cert.KernelIdeal.Fold

end
-- ==== Proof.lean ====
/-
  Two graph-convolution layers and a graph read-out, computed two ways, are one function on the extended reals.

  The program under proof runs each layer's two dense steps on the vector unit — the matrix product `X W` block by block
  over the node axis, and the combine `max (agg + H · deg⁻¹ + b, 0)` block by block — and leaves the edge-wise
  aggregation and the read-out to host operations; the reference does everything with host operations.  On the
  extended reals a change of float format is the identity, a product accumulated into zero is the plain sum of
  products, and a block of rows of a row-local map is that map of the block's rows; so each stage leaves exactly the
  array the reference's corresponding operations compute (Stage0 … Stage3), the host operations in between are the
  reference's own, applied to equal operands (Fold, RefShape), and the two results agree entry by entry.  No algebraic
  law is used beyond these readings, so the inputs' finiteness is never needed.  Neither program writes an argument.
-/
import proofs.«120384_j25744033972726_1_alg».proof.Defs
import proofs.«120384_j25744033972726_1_alg».proof.Proof.Gen.Kernel
import proofs.«120384_j25744033972726_1_alg».proof.Proof.Gen.Kernel.Skeleton
import proofs.«120384_j25744033972726_1_alg».proof.Proof.Gen.Kernel.Launch
import proofs.«120384_j25744033972726_1_alg».proof.Proof.Gen.Kernel.Points
import proofs.«120384_j25744033972726_1_alg».proof.Proof.Gen.Kernel.Frame
import proofs.«120384_j25744033972726_1_alg».proof.Proof.Gen.KernelIdeal
import proofs.«120384_j25744033972726_1_alg».proof.Proof.Gen.KernelIdeal.Skeleton
import proofs.«120384_j25744033972726_1_alg».proof.Proof.Gen.KernelIdeal.Launch
import proofs.«120384_j25744033972726_1_alg».proof.Proof.Gen.KernelIdeal.Points
import proofs.«120384_j25744033972726_1_alg».proof.Proof.Gen.KernelIdeal.Frame
import proofs.«120384_j25744033972726_1_alg».proof.Proof.Gen.ReferenceIdeal
import proofs.«120384_j25744033972726_1_alg».proof.Proof.Gen.Pre_finite_inputs
import proofs.«120384_j25744033972726_1_alg».proof.Proof.Gen.ReferenceIdeal.Run
import proofs.«120384_j25744033972726_1_alg».proof.Proof.Gen.ReferenceIdeal.Read
import proofs.«120384_j25744033972726_1_alg».proof.Proof.KernelRun
import proofs.«120384_j25744033972726_1_alg».proof.Proof.RefShape
import proofs.«120384_j25744033972726_1_alg».proof.Proof.Fold
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the read-out of the second layer of the first layer of their (equal) arguments. -/
theorem algebraic : Cert.algebraic_KernelIdeal_ReferenceIdeal := by
  intro m ρ m' ρ' _ hagree
  refine ⟨fun c => Cert.KernelIdeal.Gen.W9 m ρ c (Proc.devRef .tc Cert.KernelIdeal.main_v121),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v131_eq, Cert.ReferenceIdeal.Shape.v131_eq,
    h0, h1, h2, h3, h4, h5, h6, h7, h8, h9, h10]
  exact (Cert.KernelIdeal.Fold.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
